-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S100000x128 .f32) (main_arg1 : FVec F S3x128x128 .f32) (main_arg2 : FVec F S3x128x128 .f32) (main_arg3 : FVec F S3x128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4000x128 : Shape := ⟨2, ![4000, 128]⟩

abbrev nBuf : Space → Nat
  | .hbm => 88
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S3x128x128, .f32⟩
  | .hbm, ⟨2, _⟩ => ⟨S3x128x128, .f32⟩
  | .hbm, ⟨3, _⟩ => ⟨S3x128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128x128, .f32⟩
  | .hbm, ⟨35, _⟩ => ⟨S128x128, .f32⟩
  | .hbm, ⟨36, _⟩ => ⟨S1x128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128x128, .f32⟩
  | .hbm, ⟨58, _⟩ => ⟨S128x128, .f32⟩
  | .hbm, ⟨59, _⟩ => ⟨S1x128x128, .f32⟩
  | .hbm, ⟨60, _⟩ => ⟨S128x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128x128, .f32⟩
  | .hbm, ⟨81, _⟩ => ⟨S128x128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3x128x128, .f32⟩
  | .hbm, ⟨2, _⟩ => ⟨S3x128x128, .f32⟩
  | .hbm, ⟨3, _⟩ => ⟨S3x128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128x128, .f32⟩
  | .hbm, ⟨35, _⟩ => ⟨S128x128, .f32⟩
  | .hbm, ⟨36, _⟩ => ⟨S100000x128, .f32⟩
  | .hbm, ⟨37, _⟩ => ⟨S1x128x128, .f32⟩
  | .hbm, ⟨38, _⟩ => ⟨S128x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128x128, .f32⟩
  | .hbm, ⟨65, _⟩ => ⟨S128x128, .f32⟩
  | .hbm, ⟨66, _⟩ => ⟨S100000x128, .f32⟩
  | .hbm, ⟨67, _⟩ => ⟨S1x128x128, .f32⟩
  | .hbm, ⟨68, _⟩ => ⟨S128x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S1x128x128, .f32⟩
  | .hbm, ⟨95, _⟩ => ⟨S128x128, .f32⟩
  | .hbm, ⟨96, _⟩ => ⟨S100000x128, .f32⟩
  | .hbm, ⟨97, _⟩ => ⟨S1x128x128, .f32⟩
  | .hbm, ⟨98, _⟩ => ⟨S128x128, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S128, .f32⟩
  | .hbm, ⟨103, _⟩ => ⟨S1x128, .f32⟩
  | .hbm, ⟨104, _⟩ => ⟨S100000x128, .f32⟩
  | .hbm, ⟨105, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call1_cst : Ref sig .tc := ⟨.hbm, 76, rfl⟩
abbrev main_call1_v0 : Ref sig .tc := ⟨.hbm, 77, rfl⟩
abbrev main_v58 : Ref sig .tc := ⟨.hbm, 78, rfl⟩
abbrev main_c_8 : Ref sig .tc := ⟨.hbm, 79, rfl⟩
abbrev main_v59 : Ref sig .tc := ⟨.hbm, 80, rfl⟩
abbrev main_v60 : Ref sig .tc := ⟨.hbm, 81, rfl⟩
abbrev main_c_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run, keeping what the generated frame drops. The program is six segments — host
  operations, layer 0's kernel, host operations, layer 1's kernel, host operations, layer 2's kernel — and
  after the last one every buffer the host can see holds the last boundary's contents. The frame claim
  only needs the six argument arrays of that; the value claim also needs the result array, so the run is
  stated here with all of it, and the result and the arguments are read off it.
-/
import proofs.«182076_j54674933678409_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each
    buffer visible to the host holds the contents of the boundary after the last kernel. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result array and the six argument arrays named: the result at what layer 2's
    kernel leaves in it, the arguments as launched. -/
theorem run_result : θ_run defs (onTc (τ := τ) (main (F := F))) ⟨m, fun _ => 0, ρ⟩ (fun r => ∀ c : Dev nD,
      r.2.mem ((c.tc : Thread nD τ).loc main_v68) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v68 (by decide))).trans (W6_arr m ρ c 5),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)
    (run_last m ρ)

end Cert.KernelIdeal.Run

end
-- ==== Proof.DenseBody.lean ====
/-
  One GraphSAGE layer on the extended reals, and what each kernel body stores, read at one entry.

  A layer maps node features `x` and aggregated neighbour features `nb` (both N × 128) to
  `x · Ws + nb · Wn + b`: entry (p, q) is the sum over k of x[p, k] · Ws[k, q], plus the sum over k of
  nb[p, k] · Wn[k, q], plus the bias b[q]. The first two layers then take the maximum with zero.
  A kernel body works on a block of 4000 rows at a time: it narrows its operands to bf16 (the identity on
  the extended reals), multiplies each against its weight matrix into a zero accumulator, adds the two
  products and the bias row broadcast over the block's rows, and (first two layers) takes the maximum with
  zero. Entry (p, q) of what it stores is therefore the layer's formula on the block's rows.
-/
import proofs.«182076_j54674933678409_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage

open Idealize.ShloMosaic Idealize.ShloMosaic.ValueIdx

/-- Entry (p, q) of `x · Ws + nb · Wn + b` for operands of A rows: two sums over the 128 shared
    coordinates and the bias at column q. -/
def affine {A : ℕ} (x nb : (⟨2, ![A, 128]⟩ : Shape).Idx → EReal) (ws wn : (⟨2, ![128, 128]⟩ : Shape).Idx → EReal)
    (b : (⟨2, ![1, 128]⟩ : Shape).Idx → EReal) (p : Fin A) (q : Fin 128) : EReal :=
  (∑ k : Fin 128, x (ix2 p k) * ws (ix2 k q)) + (∑ k : Fin 128, nb (ix2 p k) * wn (ix2 k q)) + b (ix2 (0 : Fin 1) q)

/-- The activation of the first two layers: the maximum with the float zero's value. -/
def relu (y : EReal) : EReal := max y (Ideal.ofBits .f32 0x00000000#32)

/-- Two affine entries agree when the rows, the weight columns and the bias entries they read agree. -/
theorem affine_congr {A B : ℕ} (x nb : (⟨2, ![A, 128]⟩ : Shape).Idx → EReal) (x' nb' : (⟨2, ![B, 128]⟩ : Shape).Idx → EReal)
    (ws wn ws' wn' : (⟨2, ![128, 128]⟩ : Shape).Idx → EReal) (b b' : (⟨2, ![1, 128]⟩ : Shape).Idx → EReal)
    (p : Fin A) (p' : Fin B) (q q' : Fin 128)
    (hx : ∀ k : Fin 128, x (ix2 p k) = x' (ix2 p' k)) (hnb : ∀ k : Fin 128, nb (ix2 p k) = nb' (ix2 p' k))
    (hws : ∀ k : Fin 128, ws (ix2 k q) = ws' (ix2 k q')) (hwn : ∀ k : Fin 128, wn (ix2 k q) = wn' (ix2 k q'))
    (hb : b (ix2 (0 : Fin 1) q) = b' (ix2 (0 : Fin 1) q')) :
    affine x nb ws wn b p q = affine x' nb' ws' wn' b' p' q' := by
  have h1 : (∑ k : Fin 128, x (ix2 p k) * ws (ix2 k q)) = ∑ k : Fin 128, x' (ix2 p' k) * ws' (ix2 k q') :=
    Finset.sum_congr rfl fun k _ => by rw [hx k, hws k]
  have h2 : (∑ k : Fin 128, nb (ix2 p k) * wn (ix2 k q)) = ∑ k : Fin 128, nb' (ix2 p' k) * wn' (ix2 k q') :=
    Finset.sum_congr rfl fun k _ => by rw [hnb k, hwn k]
  unfold affine
  rw [h1, h2, hb]

/-- A whole layer over the N = 100000 nodes: entry i of the result is `act` of the affine form at i's row and
    column. `act` is `relu` for the first two layers and the identity for the last. -/
def layer (act : EReal → EReal) (x nb : (⟨2, ![100000, 128]⟩ : Shape).Idx → EReal)
    (ws wn : (⟨2, ![128, 128]⟩ : Shape).Idx → EReal) (b : (⟨2, ![1, 128]⟩ : Shape).Idx → EReal) :
    (⟨2, ![100000, 128]⟩ : Shape).Idx → EReal :=
  fun i => act (affine x nb ws wn b ⟨(i 0).val, (i 0).isLt⟩ ⟨(i 1).val, (i 1).isLt⟩)

/-- At the entry of row p and column q it is `act` of the affine form at (p, q). -/
theorem layer_ix2 (act : EReal → EReal) (x nb : (⟨2, ![100000, 128]⟩ : Shape).Idx → EReal)
    (ws wn : (⟨2, ![128, 128]⟩ : Shape).Idx → EReal) (b : (⟨2, ![1, 128]⟩ : Shape).Idx → EReal) (p : Fin 100000) (q : Fin 128) :
    layer act x nb ws wn b (ix2 p q) = act (affine x nb ws wn b p q) := rfl

end Cert.Sage

namespace Cert.KernelIdeal.Body

open Idealize.ShloMosaic Idealize.ShloMosaic.ValueIdx Cert.KernelIdeal Cert.KernelIdeal.Gen Cert.Sage

/-! ## A block's product with a weight matrix, at an entry -/

theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000 × 128 block times a 128 × 128 matrix into the zero accumulator: entry (p, q) is the sum over
    the shared coordinate k of block[p, k] · matrix[k, q]. -/
theorem product_apply (x : FVec Ideal S4000x128 .bf16) (w : FVec Ideal S128x128 .bf16) (p : Fin 4000) (q : Fin 128) :
    matmul dot_S4000x128_S128x128_S4000x128_1_0_0_1_n_n none x w (constant S4000x128 .f32 0x00000000#32) (ix2 p q)
      = ∑ k : Fin 128, x (ix2 p k) * w (ix2 k q) := by
  show FloatOps.matmul _ _ _ _ _ _ = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## What each body stores, at an entry -/

/-- The bias row broadcast over the block's rows, at (p, q), is the row's entry q. -/
theorem bias_apply (b : Vec Ideal S1x128 .f32) (p : Fin 4000) (q : Fin 128) :
    broadcastTo S4000x128 (shapeCast S1x128 b shapeCasts_S1x128_S1x128) broadcasts_S1x128_S4000x128 (ix2 p q) = b (ix2 (0 : Fin 1) q) := by
  rw [shapeCast_self]
  exact broadcastTo_1b_ab_apply b broadcasts_S1x128_S4000x128 p q

/-- Layer 0's body stores, at (p, q), the activated affine form of its blocks. -/
theorem pay0_apply (x nb : Vec Ideal S4000x128 .f32) (ws wn : Vec Ideal S128x128 .f32) (b : Vec Ideal S1x128 .f32)
    (p : Fin 4000) (q : Fin 128) :
    k0_pay1 (F := Ideal) x nb ws wn b (ix2 p q) = relu (affine x nb ws wn b p q) := by
  unfold k0_pay1
  show max ((matmul _ none _ _ _ (ix2 p q) + matmul _ none _ _ _ (ix2 p q)) + broadcastTo S4000x128 _ _ (ix2 p q)) _ = _
  rw [product_apply, product_apply, bias_apply, shapeCast_self, shapeCast_self, shapeCast_self]
  rfl

/-- Layer 1's body stores the same form of its blocks. -/
theorem pay1_apply (x nb : Vec Ideal S4000x128 .f32) (ws wn : Vec Ideal S128x128 .f32) (b : Vec Ideal S1x128 .f32)
    (p : Fin 4000) (q : Fin 128) :
    k1_pay1 (F := Ideal) x nb ws wn b (ix2 p q) = relu (affine x nb ws wn b p q) := by
  unfold k1_pay1
  show max ((matmul _ none _ _ _ (ix2 p q) + matmul _ none _ _ _ (ix2 p q)) + broadcastTo S4000x128 _ _ (ix2 p q)) _ = _
  rw [product_apply, product_apply, bias_apply, shapeCast_self, shapeCast_self, shapeCast_self, shapeCast_self]
  rfl

/-- The last layer's body stores the affine form itself: no activation. -/
theorem pay2_apply (x nb : Vec Ideal S4000x128 .f32) (ws wn : Vec Ideal S128x128 .f32) (b : Vec Ideal S1x128 .f32)
    (p : Fin 4000) (q : Fin 128) :
    k2_pay1 (F := Ideal) x nb ws wn b (ix2 p q) = affine x nb ws wn b p q := by
  unfold k2_pay1
  show (matmul _ none _ _ _ (ix2 p q) + matmul _ none _ _ _ (ix2 p q)) + broadcastTo S4000x128 _ _ (ix2 p q) = _
  rw [product_apply, product_apply, bias_apply, shapeCast_self, shapeCast_self, shapeCast_self, shapeCast_self]
  rfl

end Cert.KernelIdeal.Body

end
-- ==== Proof.Layer0.lean ====
/-
  Layer 0's kernel, from blocks to the whole array. The grid has 25 points; point t stages rows
  4000·t … 4000·t + 3999 of the node features and of the aggregated neighbour features, the two whole
  weight matrices and the whole bias row, and writes back rows 4000·t … 4000·t + 3999 of the result. What it
  writes is the layer's formula on those rows, so it is block t of the whole-array layer; the 25 blocks
  tile the 100000 rows, so after the last point the result array IS the whole-array layer of the arrays
  the kernel was entered with.
-/
import proofs.«182076_j54674933678409_1_alg».proof.Proof.Gen.KernelIdeal.Frame
import proofs.«182076_j54674933678409_1_alg».proof.Proof.DenseBody

set_option maxRecDepth 16384

noncomputable section

namespace Cert.KernelIdeal.Layer0

open Idealize.ShloMosaic Idealize.ShloMosaic.TcCoe Idealize.SL.Sem Idealize.ShloMosaic.ValueIdx
open Cert.KernelIdeal Cert.KernelIdeal.Gen Cert.KernelIdeal.Body Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: the row windows (features, neighbours, result) are at
    block (t, 0); the weights and the bias are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the node features is row 4000·t + p of the array. -/
theorem rows_x (c : Dev nD) (t : Fin cfg0.N) (y : S4000x128.Idx) (i : S100000x128.Idx)
    (h0 : (i 0).val = t.val * 4000 + (y 0).val) (h1 : (i 1).val = (y 1).val) :
    (iblk0 V c 0 t : Vec Ideal S4000x128 .f32) y = (V c main_arg0 : S100000x128.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The same for the aggregated neighbour features. -/
theorem rows_nb (c : Dev nD) (t : Fin cfg0.N) (y : S4000x128.Idx) (i : S100000x128.Idx)
    (h0 : (i 0).val = t.val * 4000 + (y 0).val) (h1 : (i 1).val = (y 1).val) :
    (iblk0 V c 1 t : Vec Ideal S4000x128 .f32) y = (V c main_v20 : S100000x128.Idx → EReal) i := by
  obtain ⟨-, -, e0, e1, -⟩ := idx_facts t
  unfold iblk0
  rw [View.read_apply]
  show V c main_v20 _ = V c main_v20 _
  congr 1
  funext a
  apply Fin.ext
  match a with
  | ⟨0, _⟩ => show win0_1.index t (0 : Fin 2) * 4000 + 1 * (y 0).val = (i 0).val; rw [e0, h0]; omega
  | ⟨1, _⟩ => show win0_1.index t (1 : Fin 2) * 128 + 1 * (y 1).val = (i 1).val; rw [e1, h1]; omega

/-- Every point's block of the self weights is the whole matrix. -/
theorem whole_ws (c : Dev nD) (t : Fin cfg0.N) (y z : S128x128.Idx) (h0 : (z 0).val = (y 0).val) (h1 : (z 1).val = (y 1).val) :
    (iblk0 V c 2 t : Vec Ideal S128x128 .f32) y = (V c main_v22 : S128x128.Idx → EReal) z := by
  obtain ⟨-, -, -, -, e0, e1, -⟩ := idx_facts t
  unfold iblk0
  rw [View.read_apply]
  show V c main_v22 _ = V c main_v22 _
  congr 1
  funext a
  apply Fin.ext
  match a with
  | ⟨0, _⟩ => show win0_2.index t (0 : Fin 2) * 128 + 1 * (y 0).val = (z 0).val; rw [e0, h0]; omega
  | ⟨1, _⟩ => show win0_2.index t (1 : Fin 2) * 128 + 1 * (y 1).val = (z 1).val; rw [e1, h1]; omega

/-- Every point's block of the neighbour weights is the whole matrix. -/
theorem whole_wn (c : Dev nD) (t : Fin cfg0.N) (y z : S128x128.Idx) (h0 : (z 0).val = (y 0).val) (h1 : (z 1).val = (y 1).val) :
    (iblk0 V c 3 t : Vec Ideal S128x128 .f32) y = (V c main_v24 : S128x128.Idx → EReal) z := by
  obtain ⟨-, -, -, -, -, -, e0, e1, -⟩ := idx_facts t
  unfold iblk0
  rw [View.read_apply]
  show V c main_v24 _ = V c main_v24 _
  congr 1
  funext a
  apply Fin.ext
  match a with
  | ⟨0, _⟩ => show win0_3.index t (0 : Fin 2) * 128 + 1 * (y 0).val = (z 0).val; rw [e0, h0]; omega
  | ⟨1, _⟩ => show win0_3.index t (1 : Fin 2) * 128 + 1 * (y 1).val = (z 1).val; rw [e1, h1]; omega

/-- Every point's block of the bias is the whole row. -/
theorem whole_b (c : Dev nD) (t : Fin cfg0.N) (y z : S1x128.Idx) (h0 : (z 0).val = (y 0).val) (h1 : (z 1).val = (y 1).val) :
    (iblk0 V c 4 t : Vec Ideal S1x128 .f32) y = (V c main_v27 : S1x128.Idx → EReal) z := by
  obtain ⟨-, -, -, -, -, -, -, -, e0, e1, -⟩ := idx_facts t
  unfold iblk0
  rw [View.read_apply]
  show V c main_v27 _ = V c main_v27 _
  congr 1
  funext a
  apply Fin.ext
  match a with
  | ⟨0, _⟩ => show win0_4.index t (0 : Fin 2) * 1 + 1 * (y 0).val = (z 0).val; rw [e0, h0]; omega
  | ⟨1, _⟩ => show win0_4.index t (1 : Fin 2) * 128 + 1 * (y 1).val = (z 1).val; rw [e1, h1]; omega

/-- The whole-array layer of the arrays the region is entered with. -/
abbrev result (c : Dev nD) : S100000x128.Idx → EReal :=
  layer relu (V c main_arg0) (V c main_v20) (V c main_v22) (V c main_v24) (V c main_v27)

/-- WHAT POINT t WRITES BACK is block t of the whole-array layer. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 4000) (q : Fin 128), j = ix2 p q := ⟨j 0, j 1, eq_ix2 j⟩
  have hr : ((((cfg0.win 5).blk t).view.emb (ix2 p q)) 0).val = t.val * 4000 + p.val := by
    show win0_5.index t (0 : Fin 2) * 4000 + 1 * p.val = _
    rw [e0]; omega
  have hc : ((((cfg0.win 5).blk t).view.emb (ix2 p q)) 1).val = q.val := by
    show win0_5.index t (1 : Fin 2) * 128 + 1 * q.val = _
    rw [e1]; omega
  show k0_pay1 (F := Ideal) (iblk0 V c 0 t) (iblk0 V c 1 t) (iblk0 V c 2 t) (iblk0 V c 3 t) (iblk0 V c 4 t) (ix2 p q)
    = result V c (((cfg0.win 5).blk t).view.emb (ix2 p q))
  refine (pay0_apply _ _ _ _ _ p q).trans ?_
  show relu _ = relu _
  refine congrArg relu (affine_congr _ _ _ _ _ _ _ _ _ _ p _ q _ (fun kk => ?_) (fun kk => ?_) (fun kk => ?_) (fun kk => ?_) ?_)
  · exact rows_x V c t (ix2 p kk) (ix2 _ kk) hr rfl
  · exact rows_nb V c t (ix2 p kk) (ix2 _ kk) hr rfl
  · exact whole_ws V c t (ix2 kk q) (ix2 kk _) rfl hc
  · exact whole_wn V c t (ix2 kk q) (ix2 kk _) rfl hc
  · exact whole_b V c t (ix2 (0 : Fin 1) q) (ix2 (0 : Fin 1) _) rfl hc

/-- An index of the array is in point t's block iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v28).slice (win0_5.rect t)).set ↔ _
  rw [View.set_slice_whole, Rect.mem_set_unit]
  exact Iff.rfl

/-- Row r lies in the block of point r / 4000. -/
theorem cover (i : S100000x128.Idx) :
    ∃ t : Fin cfg0.N, (cfg0.win 5).flush t = true ∧ i ∈ ((cfg0.win 5).blk t).view.set := by
  have hN : cfg0.N = 25 := N_0
  have hi0 : (i 0).val < 100000 := (i 0).isLt
  have hi1 : (i 1).val < 128 := (i 1).isLt
  refine ⟨⟨(i 0).val / 4000, by rw [hN]; omega⟩, flush0_5 _, ?_⟩
  rw [mem_blk]
  obtain ⟨-, -, -, -, -, -, -, -, -, -, e0, e1⟩ := idx_facts ⟨(i 0).val / 4000, by rw [hN]; omega⟩
  intro a
  match a with
  | ⟨0, _⟩ =>
    show win0_5.index _ (0 : Fin 2) * 4000 ≤ (i 0).val ∧ (i 0).val < win0_5.index _ (0 : Fin 2) * 4000 + 4000
    rw [e0]; show (i 0).val / 4000 * 4000 ≤ (i 0).val ∧ (i 0).val < (i 0).val / 4000 * 4000 + 4000; omega
  | ⟨1, _⟩ =>
    show win0_5.index _ (1 : Fin 2) * 128 ≤ (i 1).val ∧ (i 1).val < win0_5.index _ (1 : Fin 2) * 128 + 128
    rw [e1]; omega

/-- THE ARRAY after the region: the whole-array layer of the arrays it was entered with. -/
theorem final (c : Dev nD) : (dat0 V c).arrAt 5 cfg0.N = result V c :=
  (dat0 V c).arrAt_eq_of_cover 5 (result V c) (fun t _ => flushed_eq V c t) (cover)

end Cert.KernelIdeal.Layer0

end
-- ==== Proof.Layer1.lean ====
/-
  Layer 1's kernel, from blocks to the whole array. The grid has 25 points; point t stages rows
  4000·t … 4000·t + 3999 of the node features and of the aggregated neighbour features, the two whole
  weight matrices and the whole bias row, and writes back rows 4000·t … 4000·t + 3999 of the result. What it
  writes is the layer's formula on those rows, so it is block t of the whole-array layer; the 25 blocks
  tile the 100000 rows, so after the last point the result array IS the whole-array layer of the arrays
  the kernel was entered with.
-/
import proofs.«182076_j54674933678409_1_alg».proof.Proof.Gen.KernelIdeal.Frame
import proofs.«182076_j54674933678409_1_alg».proof.Proof.DenseBody

set_option maxRecDepth 16384

noncomputable section

namespace Cert.KernelIdeal.Layer1

open Idealize.ShloMosaic Idealize.ShloMosaic.TcCoe Idealize.SL.Sem Idealize.ShloMosaic.ValueIdx
open Cert.KernelIdeal Cert.KernelIdeal.Gen Cert.KernelIdeal.Body Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: the row windows (features, neighbours, result) are at
    block (t, 0); the weights and the bias are at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the node features is row 4000·t + p of the array. -/
theorem rows_x (c : Dev nD) (t : Fin cfg1.N) (y : S4000x128.Idx) (i : S100000x128.Idx)
    (h0 : (i 0).val = t.val * 4000 + (y 0).val) (h1 : (i 1).val = (y 1).val) :
    (iblk1 V c 0 t : Vec Ideal S4000x128 .f32) y = (V c main_v28 : S100000x128.Idx → EReal) i := by
  obtain ⟨e0, e1, -⟩ := idx_facts t
  unfold iblk1
  rw [View.read_apply]
  show V c main_v28 _ = V c main_v28 _
  congr 1
  funext a
  apply Fin.ext
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

/-- The same for the aggregated neighbour features. -/
theorem rows_nb (c : Dev nD) (t : Fin cfg1.N) (y : S4000x128.Idx) (i : S100000x128.Idx)
    (h0 : (i 0).val = t.val * 4000 + (y 0).val) (h1 : (i 1).val = (y 1).val) :
    (iblk1 V c 1 t : Vec Ideal S4000x128 .f32) y = (V c main_v40 : S100000x128.Idx → EReal) i := by
  obtain ⟨-, -, e0, e1, -⟩ := idx_facts t
  unfold iblk1
  rw [View.read_apply]
  show V c main_v40 _ = V c main_v40 _
  congr 1
  funext a
  apply Fin.ext
  match a with
  | ⟨0, _⟩ => show win1_1.index t (0 : Fin 2) * 4000 + 1 * (y 0).val = (i 0).val; rw [e0, h0]; omega
  | ⟨1, _⟩ => show win1_1.index t (1 : Fin 2) * 128 + 1 * (y 1).val = (i 1).val; rw [e1, h1]; omega

/-- Every point's block of the self weights is the whole matrix. -/
theorem whole_ws (c : Dev nD) (t : Fin cfg1.N) (y z : S128x128.Idx) (h0 : (z 0).val = (y 0).val) (h1 : (z 1).val = (y 1).val) :
    (iblk1 V c 2 t : Vec Ideal S128x128 .f32) y = (V c main_v42 : S128x128.Idx → EReal) z := by
  obtain ⟨-, -, -, -, e0, e1, -⟩ := idx_facts t
  unfold iblk1
  rw [View.read_apply]
  show V c main_v42 _ = V c main_v42 _
  congr 1
  funext a
  apply Fin.ext
  match a with
  | ⟨0, _⟩ => show win1_2.index t (0 : Fin 2) * 128 + 1 * (y 0).val = (z 0).val; rw [e0, h0]; omega
  | ⟨1, _⟩ => show win1_2.index t (1 : Fin 2) * 128 + 1 * (y 1).val = (z 1).val; rw [e1, h1]; omega

/-- Every point's block of the neighbour weights is the whole matrix. -/
theorem whole_wn (c : Dev nD) (t : Fin cfg1.N) (y z : S128x128.Idx) (h0 : (z 0).val = (y 0).val) (h1 : (z 1).val = (y 1).val) :
    (iblk1 V c 3 t : Vec Ideal S128x128 .f32) y = (V c main_v44 : S128x128.Idx → EReal) z := by
  obtain ⟨-, -, -, -, -, -, e0, e1, -⟩ := idx_facts t
  unfold iblk1
  rw [View.read_apply]
  show V c main_v44 _ = V c main_v44 _
  congr 1
  funext a
  apply Fin.ext
  match a with
  | ⟨0, _⟩ => show win1_3.index t (0 : Fin 2) * 128 + 1 * (y 0).val = (z 0).val; rw [e0, h0]; omega
  | ⟨1, _⟩ => show win1_3.index t (1 : Fin 2) * 128 + 1 * (y 1).val = (z 1).val; rw [e1, h1]; omega

/-- Every point's block of the bias is the whole row. -/
theorem whole_b (c : Dev nD) (t : Fin cfg1.N) (y z : S1x128.Idx) (h0 : (z 0).val = (y 0).val) (h1 : (z 1).val = (y 1).val) :
    (iblk1 V c 4 t : Vec Ideal S1x128 .f32) y = (V c main_v47 : S1x128.Idx → EReal) z := by
  obtain ⟨-, -, -, -, -, -, -, -, e0, e1, -⟩ := idx_facts t
  unfold iblk1
  rw [View.read_apply]
  show V c main_v47 _ = V c main_v47 _
  congr 1
  funext a
  apply Fin.ext
  match a with
  | ⟨0, _⟩ => show win1_4.index t (0 : Fin 2) * 1 + 1 * (y 0).val = (z 0).val; rw [e0, h0]; omega
  | ⟨1, _⟩ => show win1_4.index t (1 : Fin 2) * 128 + 1 * (y 1).val = (z 1).val; rw [e1, h1]; omega

/-- The whole-array layer of the arrays the region is entered with. -/
abbrev result (c : Dev nD) : S100000x128.Idx → EReal :=
  layer relu (V c main_v28) (V c main_v40) (V c main_v42) (V c main_v44) (V c main_v47)

/-- WHAT POINT t WRITES BACK is block t of the whole-array layer. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 4000) (q : Fin 128), j = ix2 p q := ⟨j 0, j 1, eq_ix2 j⟩
  have hr : ((((cfg1.win 5).blk t).view.emb (ix2 p q)) 0).val = t.val * 4000 + p.val := by
    show win1_5.index t (0 : Fin 2) * 4000 + 1 * p.val = _
    rw [e0]; omega
  have hc : ((((cfg1.win 5).blk t).view.emb (ix2 p q)) 1).val = q.val := by
    show win1_5.index t (1 : Fin 2) * 128 + 1 * q.val = _
    rw [e1]; omega
  show k1_pay1 (F := Ideal) (iblk1 V c 0 t) (iblk1 V c 1 t) (iblk1 V c 2 t) (iblk1 V c 3 t) (iblk1 V c 4 t) (ix2 p q)
    = result V c (((cfg1.win 5).blk t).view.emb (ix2 p q))
  refine (pay1_apply _ _ _ _ _ p q).trans ?_
  show relu _ = relu _
  refine congrArg relu (affine_congr _ _ _ _ _ _ _ _ _ _ p _ q _ (fun kk => ?_) (fun kk => ?_) (fun kk => ?_) (fun kk => ?_) ?_)
  · exact rows_x V c t (ix2 p kk) (ix2 _ kk) hr rfl
  · exact rows_nb V c t (ix2 p kk) (ix2 _ kk) hr rfl
  · exact whole_ws V c t (ix2 kk q) (ix2 kk _) rfl hc
  · exact whole_wn V c t (ix2 kk q) (ix2 kk _) rfl hc
  · exact whole_b V c t (ix2 (0 : Fin 1) q) (ix2 (0 : Fin 1) _) rfl hc

/-- An index of the array is in point t's block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v48).slice (win1_5.rect t)).set ↔ _
  rw [View.set_slice_whole, Rect.mem_set_unit]
  exact Iff.rfl

/-- Row r lies in the block of point r / 4000. -/
theorem cover (i : S100000x128.Idx) :
    ∃ t : Fin cfg1.N, (cfg1.win 5).flush t = true ∧ i ∈ ((cfg1.win 5).blk t).view.set := by
  have hN : cfg1.N = 25 := N_1
  have hi0 : (i 0).val < 100000 := (i 0).isLt
  have hi1 : (i 1).val < 128 := (i 1).isLt
  refine ⟨⟨(i 0).val / 4000, by rw [hN]; omega⟩, flush1_5 _, ?_⟩
  rw [mem_blk]
  obtain ⟨-, -, -, -, -, -, -, -, -, -, e0, e1⟩ := idx_facts ⟨(i 0).val / 4000, by rw [hN]; omega⟩
  intro a
  match a with
  | ⟨0, _⟩ =>
    show win1_5.index _ (0 : Fin 2) * 4000 ≤ (i 0).val ∧ (i 0).val < win1_5.index _ (0 : Fin 2) * 4000 + 4000
    rw [e0]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e1]; omega

/-- THE ARRAY after the region: the whole-array layer of the arrays it was entered with. -/
theorem final (c : Dev nD) : (dat1 V c).arrAt 5 cfg1.N = result V c :=
  (dat1 V c).arrAt_eq_of_cover 5 (result V c) (fun t _ => flushed_eq V c t) (cover)

end Cert.KernelIdeal.Layer1

end
-- ==== Proof.Layer2.lean ====
/-
  Layer 2's kernel, from blocks to the whole array. The grid has 25 points; point t stages rows
  4000·t … 4000·t + 3999 of the node features and of the aggregated neighbour features, the two whole
  weight matrices and the whole bias row, and writes back rows 4000·t … 4000·t + 3999 of the result. What it
  writes is the layer's formula on those rows, so it is block t of the whole-array layer; the 25 blocks
  tile the 100000 rows, so after the last point the result array IS the whole-array layer of the arrays
  the kernel was entered with.
-/
import proofs.«182076_j54674933678409_1_alg».proof.Proof.Gen.KernelIdeal.Frame
import proofs.«182076_j54674933678409_1_alg».proof.Proof.DenseBody

set_option maxRecDepth 16384

noncomputable section

namespace Cert.KernelIdeal.Layer2

open Idealize.ShloMosaic Idealize.ShloMosaic.TcCoe Idealize.SL.Sem Idealize.ShloMosaic.ValueIdx
open Cert.KernelIdeal Cert.KernelIdeal.Gen Cert.KernelIdeal.Body Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 25 grid points: the row windows (features, neighbours, result) are at
    block (t, 0); the weights and the bias are at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's block of the node features is row 4000·t + p of the array. -/
theorem rows_x (c : Dev nD) (t : Fin cfg2.N) (y : S4000x128.Idx) (i : S100000x128.Idx)
    (h0 : (i 0).val = t.val * 4000 + (y 0).val) (h1 : (i 1).val = (y 1).val) :
    (iblk2 V c 0 t : Vec Ideal S4000x128 .f32) y = (V c main_v48 : S100000x128.Idx → EReal) i := by
  obtain ⟨e0, e1, -⟩ := idx_facts t
  unfold iblk2
  rw [View.read_apply]
  show V c main_v48 _ = V c main_v48 _
  congr 1
  funext a
  apply Fin.ext
  match a with
  | ⟨0, _⟩ => show win2_0.index t (0 : Fin 2) * 4000 + 1 * (y 0).val = (i 0).val; rw [e0, h0]; omega
  | ⟨1, _⟩ => show win2_0.index t (1 : Fin 2) * 128 + 1 * (y 1).val = (i 1).val; rw [e1, h1]; omega

/-- The same for the aggregated neighbour features. -/
theorem rows_nb (c : Dev nD) (t : Fin cfg2.N) (y : S4000x128.Idx) (i : S100000x128.Idx)
    (h0 : (i 0).val = t.val * 4000 + (y 0).val) (h1 : (i 1).val = (y 1).val) :
    (iblk2 V c 1 t : Vec Ideal S4000x128 .f32) y = (V c main_v60 : S100000x128.Idx → EReal) i := by
  obtain ⟨-, -, e0, e1, -⟩ := idx_facts t
  unfold iblk2
  rw [View.read_apply]
  show V c main_v60 _ = V c main_v60 _
  congr 1
  funext a
  apply Fin.ext
  match a with
  | ⟨0, _⟩ => show win2_1.index t (0 : Fin 2) * 4000 + 1 * (y 0).val = (i 0).val; rw [e0, h0]; omega
  | ⟨1, _⟩ => show win2_1.index t (1 : Fin 2) * 128 + 1 * (y 1).val = (i 1).val; rw [e1, h1]; omega

/-- Every point's block of the self weights is the whole matrix. -/
theorem whole_ws (c : Dev nD) (t : Fin cfg2.N) (y z : S128x128.Idx) (h0 : (z 0).val = (y 0).val) (h1 : (z 1).val = (y 1).val) :
    (iblk2 V c 2 t : Vec Ideal S128x128 .f32) y = (V c main_v62 : S128x128.Idx → EReal) z := by
  obtain ⟨-, -, -, -, e0, e1, -⟩ := idx_facts t
  unfold iblk2
  rw [View.read_apply]
  show V c main_v62 _ = V c main_v62 _
  congr 1
  funext a
  apply Fin.ext
  match a with
  | ⟨0, _⟩ => show win2_2.index t (0 : Fin 2) * 128 + 1 * (y 0).val = (z 0).val; rw [e0, h0]; omega
  | ⟨1, _⟩ => show win2_2.index t (1 : Fin 2) * 128 + 1 * (y 1).val = (z 1).val; rw [e1, h1]; omega

/-- Every point's block of the neighbour weights is the whole matrix. -/
theorem whole_wn (c : Dev nD) (t : Fin cfg2.N) (y z : S128x128.Idx) (h0 : (z 0).val = (y 0).val) (h1 : (z 1).val = (y 1).val) :
    (iblk2 V c 3 t : Vec Ideal S128x128 .f32) y = (V c main_v64 : S128x128.Idx → EReal) z := by
  obtain ⟨-, -, -, -, -, -, e0, e1, -⟩ := idx_facts t
  unfold iblk2
  rw [View.read_apply]
  show V c main_v64 _ = V c main_v64 _
  congr 1
  funext a
  apply Fin.ext
  match a with
  | ⟨0, _⟩ => show win2_3.index t (0 : Fin 2) * 128 + 1 * (y 0).val = (z 0).val; rw [e0, h0]; omega
  | ⟨1, _⟩ => show win2_3.index t (1 : Fin 2) * 128 + 1 * (y 1).val = (z 1).val; rw [e1, h1]; omega

/-- Every point's block of the bias is the whole row. -/
theorem whole_b (c : Dev nD) (t : Fin cfg2.N) (y z : S1x128.Idx) (h0 : (z 0).val = (y 0).val) (h1 : (z 1).val = (y 1).val) :
    (iblk2 V c 4 t : Vec Ideal S1x128 .f32) y = (V c main_v67 : S1x128.Idx → EReal) z := by
  obtain ⟨-, -, -, -, -, -, -, -, e0, e1, -⟩ := idx_facts t
  unfold iblk2
  rw [View.read_apply]
  show V c main_v67 _ = V c main_v67 _
  congr 1
  funext a
  apply Fin.ext
  match a with
  | ⟨0, _⟩ => show win2_4.index t (0 : Fin 2) * 1 + 1 * (y 0).val = (z 0).val; rw [e0, h0]; omega
  | ⟨1, _⟩ => show win2_4.index t (1 : Fin 2) * 128 + 1 * (y 1).val = (z 1).val; rw [e1, h1]; omega

/-- The whole-array layer of the arrays the region is entered with. -/
abbrev result (c : Dev nD) : S100000x128.Idx → EReal :=
  layer id (V c main_v48) (V c main_v60) (V c main_v62) (V c main_v64) (V c main_v67)

/-- WHAT POINT t WRITES BACK is block t of the whole-array layer. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 4000) (q : Fin 128), j = ix2 p q := ⟨j 0, j 1, eq_ix2 j⟩
  have hr : ((((cfg2.win 5).blk t).view.emb (ix2 p q)) 0).val = t.val * 4000 + p.val := by
    show win2_5.index t (0 : Fin 2) * 4000 + 1 * p.val = _
    rw [e0]; omega
  have hc : ((((cfg2.win 5).blk t).view.emb (ix2 p q)) 1).val = q.val := by
    show win2_5.index t (1 : Fin 2) * 128 + 1 * q.val = _
    rw [e1]; omega
  show k2_pay1 (F := Ideal) (iblk2 V c 0 t) (iblk2 V c 1 t) (iblk2 V c 2 t) (iblk2 V c 3 t) (iblk2 V c 4 t) (ix2 p q)
    = result V c (((cfg2.win 5).blk t).view.emb (ix2 p q))
  refine (pay2_apply _ _ _ _ _ p q).trans ?_
  show id _ = id _
  refine congrArg id (affine_congr _ _ _ _ _ _ _ _ _ _ p _ q _ (fun kk => ?_) (fun kk => ?_) (fun kk => ?_) (fun kk => ?_) ?_)
  · exact rows_x V c t (ix2 p kk) (ix2 _ kk) hr rfl
  · exact rows_nb V c t (ix2 p kk) (ix2 _ kk) hr rfl
  · exact whole_ws V c t (ix2 kk q) (ix2 kk _) rfl hc
  · exact whole_wn V c t (ix2 kk q) (ix2 kk _) rfl hc
  · exact whole_b V c t (ix2 (0 : Fin 1) q) (ix2 (0 : Fin 1) _) rfl hc

/-- An index of the array is in point t's block iff each coordinate is in the block's range on its axis. -/
theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v68).slice (win2_5.rect t)).set ↔ _
  rw [View.set_slice_whole, Rect.mem_set_unit]
  exact Iff.rfl

/-- Row r lies in the block of point r / 4000. -/
theorem cover (i : S100000x128.Idx) :
    ∃ t : Fin cfg2.N, (cfg2.win 5).flush t = true ∧ i ∈ ((cfg2.win 5).blk t).view.set := by
  have hN : cfg2.N = 25 := N_2
  have hi0 : (i 0).val < 100000 := (i 0).isLt
  have hi1 : (i 1).val < 128 := (i 1).isLt
  refine ⟨⟨(i 0).val / 4000, by rw [hN]; omega⟩, flush2_5 _, ?_⟩
  rw [mem_blk]
  obtain ⟨-, -, -, -, -, -, -, -, -, -, e0, e1⟩ := idx_facts ⟨(i 0).val / 4000, by rw [hN]; omega⟩
  intro a
  match a with
  | ⟨0, _⟩ =>
    show win2_5.index _ (0 : Fin 2) * 4000 ≤ (i 0).val ∧ (i 0).val < win2_5.index _ (0 : Fin 2) * 4000 + 4000
    rw [e0]; show (i 0).val / 4000 * 4000 ≤ (i 0).val ∧ (i 0).val < (i 0).val / 4000 * 4000 + 4000; omega
  | ⟨1, _⟩ =>
    show win2_5.index _ (1 : Fin 2) * 128 ≤ (i 1).val ∧ (i 1).val < win2_5.index _ (1 : Fin 2) * 128 + 128
    rw [e1]; omega

/-- THE ARRAY after the region: the whole-array layer of the arrays it was entered with. -/
theorem final (c : Dev nD) : (dat2 V c).arrAt 5 cfg2.N = result V c :=
  (dat2 V c).arrAt_eq_of_cover 5 (result V c) (fun t _ => flushed_eq V c t) (cover)

end Cert.KernelIdeal.Layer2

end
-- ==== Proof.RefLayers.lean ====
/-
  The reference, layer by layer. Each of its three layers is the same composition — the node features times the
  layer's slice of the self weights, the aggregated neighbour features times its slice of the neighbour weights,
  their sum, plus the layer's bias row broadcast over the 100000 rows, and for the first two layers the maximum
  with zero — so each stage that ends a layer is the whole-array layer function of the stages it reads. Read at an
  entry, a product is a sum over the 128 shared coordinates; nothing else is used.
-/
import proofs.«182076_j54674933678409_1_alg».proof.Proof.Gen.ReferenceIdeal.Read
import proofs.«182076_j54674933678409_1_alg».proof.Proof.DenseBody

noncomputable section

open scoped BigOperators

namespace Cert.ReferenceIdeal.Layers

open Idealize.ShloMosaic Idealize.ShloMosaic.ValueIdx Cert.ReferenceIdeal Cert.ReferenceIdeal.Read Cert.Sage

/-- Layer 0 of the reference — two products against the layer's weight slices, their sum, the bias broadcast
    over the rows, the maximum with zero — is the whole-array layer of its operands: entry (p, q) reads row p of the
    features and of the neighbour features, column q of the two weight matrices and entry q of the bias. -/
theorem layer0_eq (x0 : (⟨S100000x128, .f32⟩ : BufTy).Contents (Elt Ideal)) (x1 x2 : (⟨S3x128x128, .f32⟩ : BufTy).Contents (Elt Ideal))
    (x3 : (⟨S3x128, .f32⟩ : BufTy).Contents (Elt Ideal)) (x4 x5 : (⟨S1600000, .i32⟩ : BufTy).Contents (Elt Ideal))
    (b : (⟨2, ![1, 128]⟩ : Shape).Idx → EReal) (hb : ∀ q : Fin 128, b (ix2 (0 : Fin 1) q) = val_main_v29 (F := Ideal) x3 (ix1 q)) :
    val_main_v33 (F := Ideal) x0 x1 x2 x3 x4 x5 = layer relu (x0) (val_main_v20 (F := Ideal) x0 x4 x5) (val_main_v22 (F := Ideal) x1) (val_main_v25 (F := Ideal) x2) b := by
  funext i
  obtain ⟨p, q, rfl⟩ : ∃ (p : Fin 100000) (q : Fin 128), i = ix2 p q := ⟨i 0, i 1, eq_ix2 i⟩
  have e1 : ∀ k : Fin 128, lidx_main_v23 (ix2 p q) k = ix2 p k := fun k => funext fun a => Fin.ext (by
    match a with | ⟨0, _⟩ => rfl | ⟨1, _⟩ => rfl)
  have e2 : ∀ k : Fin 128, ridx_main_v23 (ix2 p q) k = ix2 k q := fun k => funext fun a => Fin.ext (by
    match a with | ⟨0, _⟩ => rfl | ⟨1, _⟩ => rfl)
  have e3 : ∀ k : Fin 128, lidx_main_v26 (ix2 p q) k = ix2 p k := fun k => funext fun a => Fin.ext (by
    match a with | ⟨0, _⟩ => rfl | ⟨1, _⟩ => rfl)
  have e4 : ∀ k : Fin 128, ridx_main_v26 (ix2 p q) k = ix2 k q := fun k => funext fun a => Fin.ext (by
    match a with | ⟨0, _⟩ => rfl | ⟨1, _⟩ => rfl)
  have e5 : idx_main_v30 (idx_main_v31 (ix2 p q)) = ix1 q := funext fun a => Fin.ext (by
    match a with | ⟨0, _⟩ => rfl)
  refine Eq.trans ?_ (layer_ix2 relu _ _ _ _ _ p q).symm
  rw [val_main_v33_apply, val_main_v32_apply, val_main_v27_apply, val_main_v23_apply, val_main_v26_apply, val_main_v31_apply, val_main_v30_apply, val_main_call0_v0_apply, val_main_call0_cst_apply]
  have s1 : (∑ k : Fin 128, (x0) (lidx_main_v23 (ix2 p q) k) * (val_main_v22 (F := Ideal) x1) (ridx_main_v23 (ix2 p q) k))
      = ∑ k : Fin 128, (x0) (ix2 p k) * (val_main_v22 (F := Ideal) x1) (ix2 k q) :=
    Finset.sum_congr rfl fun k _ => by rw [e1 k, e2 k]
  have s2 : (∑ k : Fin 128, (val_main_v20 (F := Ideal) x0 x4 x5) (lidx_main_v26 (ix2 p q) k) * (val_main_v25 (F := Ideal) x2) (ridx_main_v26 (ix2 p q) k))
      = ∑ k : Fin 128, (val_main_v20 (F := Ideal) x0 x4 x5) (ix2 p k) * (val_main_v25 (F := Ideal) x2) (ix2 k q) :=
    Finset.sum_congr rfl fun k _ => by rw [e3 k, e4 k]
  rw [s1, s2, e5, ← hb q]
  rfl

/-- Layer 1 of the reference — two products against the layer's weight slices, their sum, the bias broadcast
    over the rows, the maximum with zero — is the whole-array layer of its operands: entry (p, q) reads row p of the
    features and of the neighbour features, column q of the two weight matrices and entry q of the bias. -/
theorem layer1_eq (x0 : (⟨S100000x128, .f32⟩ : BufTy).Contents (Elt Ideal)) (x1 x2 : (⟨S3x128x128, .f32⟩ : BufTy).Contents (Elt Ideal))
    (x3 : (⟨S3x128, .f32⟩ : BufTy).Contents (Elt Ideal)) (x4 x5 : (⟨S1600000, .i32⟩ : BufTy).Contents (Elt Ideal))
    (b : (⟨2, ![1, 128]⟩ : Shape).Idx → EReal) (hb : ∀ q : Fin 128, b (ix2 (0 : Fin 1) q) = val_main_v54 (F := Ideal) x3 (ix1 q)) :
    val_main_v58 (F := Ideal) x0 x1 x2 x3 x4 x5 = layer relu (val_main_v33 (F := Ideal) x0 x1 x2 x3 x4 x5) (val_main_v45 (F := Ideal) x0 x1 x2 x3 x4 x5) (val_main_v47 (F := Ideal) x1) (val_main_v50 (F := Ideal) x2) b := by
  funext i
  obtain ⟨p, q, rfl⟩ : ∃ (p : Fin 100000) (q : Fin 128), i = ix2 p q := ⟨i 0, i 1, eq_ix2 i⟩
  have e1 : ∀ k : Fin 128, lidx_main_v48 (ix2 p q) k = ix2 p k := fun k => funext fun a => Fin.ext (by
    match a with | ⟨0, _⟩ => rfl | ⟨1, _⟩ => rfl)
  have e2 : ∀ k : Fin 128, ridx_main_v48 (ix2 p q) k = ix2 k q := fun k => funext fun a => Fin.ext (by
    match a with | ⟨0, _⟩ => rfl | ⟨1, _⟩ => rfl)
  have e3 : ∀ k : Fin 128, lidx_main_v51 (ix2 p q) k = ix2 p k := fun k => funext fun a => Fin.ext (by
    match a with | ⟨0, _⟩ => rfl | ⟨1, _⟩ => rfl)
  have e4 : ∀ k : Fin 128, ridx_main_v51 (ix2 p q) k = ix2 k q := fun k => funext fun a => Fin.ext (by
    match a with | ⟨0, _⟩ => rfl | ⟨1, _⟩ => rfl)
  have e5 : idx_main_v55 (idx_main_v56 (ix2 p q)) = ix1 q := funext fun a => Fin.ext (by
    match a with | ⟨0, _⟩ => rfl)
  refine Eq.trans ?_ (layer_ix2 relu _ _ _ _ _ p q).symm
  rw [val_main_v58_apply, val_main_v57_apply, val_main_v52_apply, val_main_v48_apply, val_main_v51_apply, val_main_v56_apply, val_main_v55_apply, val_main_call1_v0_apply, val_main_call1_cst_apply]
  have s1 : (∑ k : Fin 128, (val_main_v33 (F := Ideal) x0 x1 x2 x3 x4 x5) (lidx_main_v48 (ix2 p q) k) * (val_main_v47 (F := Ideal) x1) (ridx_main_v48 (ix2 p q) k))
      = ∑ k : Fin 128, (val_main_v33 (F := Ideal) x0 x1 x2 x3 x4 x5) (ix2 p k) * (val_main_v47 (F := Ideal) x1) (ix2 k q) :=
    Finset.sum_congr rfl fun k _ => by rw [e1 k, e2 k]
  have s2 : (∑ k : Fin 128, (val_main_v45 (F := Ideal) x0 x1 x2 x3 x4 x5) (lidx_main_v51 (ix2 p q) k) * (val_main_v50 (F := Ideal) x2) (ridx_main_v51 (ix2 p q) k))
      = ∑ k : Fin 128, (val_main_v45 (F := Ideal) x0 x1 x2 x3 x4 x5) (ix2 p k) * (val_main_v50 (F := Ideal) x2) (ix2 k q) :=
    Finset.sum_congr rfl fun k _ => by rw [e3 k, e4 k]
  rw [s1, s2, e5, ← hb q]
  rfl

/-- Layer 2 of the reference — two products against the layer's weight slices, their sum, the bias broadcast
    over the rows — is the whole-array layer of its operands: entry (p, q) reads row p of the
    features and of the neighbour features, column q of the two weight matrices and entry q of the bias. -/
theorem layer2_eq (x0 : (⟨S100000x128, .f32⟩ : BufTy).Contents (Elt Ideal)) (x1 x2 : (⟨S3x128x128, .f32⟩ : BufTy).Contents (Elt Ideal))
    (x3 : (⟨S3x128, .f32⟩ : BufTy).Contents (Elt Ideal)) (x4 x5 : (⟨S1600000, .i32⟩ : BufTy).Contents (Elt Ideal))
    (b : (⟨2, ![1, 128]⟩ : Shape).Idx → EReal) (hb : ∀ q : Fin 128, b (ix2 (0 : Fin 1) q) = val_main_v79 (F := Ideal) x3 (ix1 q)) :
    val_main_v82 (F := Ideal) x0 x1 x2 x3 x4 x5 = layer id (val_main_v58 (F := Ideal) x0 x1 x2 x3 x4 x5) (val_main_v70 (F := Ideal) x0 x1 x2 x3 x4 x5) (val_main_v72 (F := Ideal) x1) (val_main_v75 (F := Ideal) x2) b := by
  funext i
  obtain ⟨p, q, rfl⟩ : ∃ (p : Fin 100000) (q : Fin 128), i = ix2 p q := ⟨i 0, i 1, eq_ix2 i⟩
  have e1 : ∀ k : Fin 128, lidx_main_v73 (ix2 p q) k = ix2 p k := fun k => funext fun a => Fin.ext (by
    match a with | ⟨0, _⟩ => rfl | ⟨1, _⟩ => rfl)
  have e2 : ∀ k : Fin 128, ridx_main_v73 (ix2 p q) k = ix2 k q := fun k => funext fun a => Fin.ext (by
    match a with | ⟨0, _⟩ => rfl | ⟨1, _⟩ => rfl)
  have e3 : ∀ k : Fin 128, lidx_main_v76 (ix2 p q) k = ix2 p k := fun k => funext fun a => Fin.ext (by
    match a with | ⟨0, _⟩ => rfl | ⟨1, _⟩ => rfl)
  have e4 : ∀ k : Fin 128, ridx_main_v76 (ix2 p q) k = ix2 k q := fun k => funext fun a => Fin.ext (by
    match a with | ⟨0, _⟩ => rfl | ⟨1, _⟩ => rfl)
  have e5 : idx_main_v80 (idx_main_v81 (ix2 p q)) = ix1 q := funext fun a => Fin.ext (by
    match a with | ⟨0, _⟩ => rfl)
  refine Eq.trans ?_ (layer_ix2 id _ _ _ _ _ p q).symm
  rw [val_main_v82_apply, val_main_v77_apply, val_main_v73_apply, val_main_v76_apply, val_main_v81_apply, val_main_v80_apply]
  have s1 : (∑ k : Fin 128, (val_main_v58 (F := Ideal) x0 x1 x2 x3 x4 x5) (lidx_main_v73 (ix2 p q) k) * (val_main_v72 (F := Ideal) x1) (ridx_main_v73 (ix2 p q) k))
      = ∑ k : Fin 128, (val_main_v58 (F := Ideal) x0 x1 x2 x3 x4 x5) (ix2 p k) * (val_main_v72 (F := Ideal) x1) (ix2 k q) :=
    Finset.sum_congr rfl fun k _ => by rw [e1 k, e2 k]
  have s2 : (∑ k : Fin 128, (val_main_v70 (F := Ideal) x0 x1 x2 x3 x4 x5) (lidx_main_v76 (ix2 p q) k) * (val_main_v75 (F := Ideal) x2) (ridx_main_v76 (ix2 p q) k))
      = ∑ k : Fin 128, (val_main_v70 (F := Ideal) x0 x1 x2 x3 x4 x5) (ix2 p k) * (val_main_v75 (F := Ideal) x2) (ix2 k q) :=
    Finset.sum_congr rfl fun k _ => by rw [e3 k, e4 k]
  rw [s1, s2, e5, ← hb q]
  rfl

end Cert.ReferenceIdeal.Layers

end
-- ==== Proof.Boundary.lean ====
/-
  The arrays each kernel is entered with, in the reference's own terms. Both programs run the same host
  operations around the layers: the in-degree of every node and its reciprocal (clamped at one), then per layer
  the gather of the source rows, their scatter-add onto the destination rows, the scaling by the reciprocal
  degree, and the layer's slices of the weights and of the bias. So the array a kernel stages as its neighbour
  features IS the reference's aggregation stage of the same layer, its weight operands ARE the reference's weight
  slices, and its node features are the arguments (layer 0) or the previous kernel's result (layers 1 and 2) —
  which, by induction on the layers, is the reference's stage that ends the previous layer. A buffer that a stretch
  of host operations or a kernel does not write keeps its contents across it, which is how the edge lists, the
  weights and the reciprocal degree reach the later layers.
-/
import proofs.«182076_j54674933678409_1_alg».proof.Proof.Gen.KernelIdeal.Frame
import proofs.«182076_j54674933678409_1_alg».proof.Proof.Gen.ReferenceIdeal.Read
import proofs.«182076_j54674933678409_1_alg».proof.Proof.Layer0
import proofs.«182076_j54674933678409_1_alg».proof.Proof.Layer1
import proofs.«182076_j54674933678409_1_alg».proof.Proof.Layer2
import proofs.«182076_j54674933678409_1_alg».proof.Proof.RefLayers
import Idealize.ShloMosaic.Lib.StableHlo.Run
import Idealize.ShloMosaic.Lib.ValueLayout

set_option maxRecDepth 16384

noncomputable section

namespace Cert.KernelIdeal.Boundary

open Idealize.ShloMosaic Idealize.ShloMosaic.TcCoe Idealize.SL.Sem Idealize.ShloMosaic.ValueIdx Idealize.ShloMosaic.StableHlo
open Cert.KernelIdeal Cert.KernelIdeal.Gen Cert.Sage

variable (m : (ℓ : Loc nD τ sig) → Buf (Elt Ideal) ℓ) (ρ : Dev nD → PrngReg)

/-- The six argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-! ## Before layer 0: the first stretch of host operations, from the launch memory -/

theorem in0_x (c : Dev nD) : V1 m ρ c main_arg0 = a0 m c := by
  show StableHlo.after hostOps0 (W0 m ρ c) (Proc.devRef .tc main_arg0) = _
  after_results
set_option maxHeartbeats 4000000 in
theorem in0_nb (c : Dev nD) : V1 m ρ c main_v20 = Cert.ReferenceIdeal.Read.val_main_v20 (F := Ideal) (a0 m c) (a4 m c) (a5 m c) := by
  show StableHlo.after hostOps0 (W0 m ρ c) (Proc.devRef .tc main_v20) = _
  after_results_simp
  rfl
theorem in0_ws (c : Dev nD) : V1 m ρ c main_v22 = Cert.ReferenceIdeal.Read.val_main_v22 (F := Ideal) (a1 m c) := by
  show StableHlo.after hostOps0 (W0 m ρ c) (Proc.devRef .tc main_v22) = _
  after_results; rfl
theorem in0_wn (c : Dev nD) : V1 m ρ c main_v24 = Cert.ReferenceIdeal.Read.val_main_v25 (F := Ideal) (a2 m c) := by
  show StableHlo.after hostOps0 (W0 m ρ c) (Proc.devRef .tc main_v24) = _
  after_results; rfl
theorem in0_b (c : Dev nD) : V1 m ρ c main_v27 = shapeCast S1x128 (Cert.ReferenceIdeal.Read.val_main_v29 (F := Ideal) (a3 m c)) shapeCasts_S128_S1x128 := by
  show StableHlo.after hostOps0 (W0 m ρ c) (Proc.devRef .tc main_v27) = _
  after_results; rfl

/-- Layer 0's kernel leaves the reference's layer-0 stage in its result array. -/
theorem out0 (c : Dev nD) : (dat0 (V1 m ρ) c).arrAt 5 cfg0.N = Cert.ReferenceIdeal.Read.val_main_v33 (F := Ideal) (a0 m c) (a1 m c) (a2 m c) (a3 m c) (a4 m c) (a5 m c) := by
  rw [Layer0.final (V1 m ρ) c]
  show layer relu (V1 m ρ c main_arg0) (V1 m ρ c main_v20) (V1 m ρ c main_v22) (V1 m ρ c main_v24) (V1 m ρ c main_v27) = _
  rw [in0_x, in0_nb, in0_ws, in0_wn, in0_b]
  exact (Cert.ReferenceIdeal.Layers.layer0_eq _ _ _ _ _ _ _ (fun q => shapeCast_a_1a_apply _ _ (0 : Fin 1) q)).symm

/-! ## What survives to the boundary after layer 0's kernel -/

theorem keep0_arg1 (c : Dev nD) : W2 m ρ c (Proc.devRef .tc main_arg1) = a1 m c := by
  rw [W2_of_ne m ρ c main_arg1 (by decide)]
  show StableHlo.after hostOps0 (W0 m ρ c) (Proc.devRef .tc main_arg1) = _
  after_results
theorem keep0_arg2 (c : Dev nD) : W2 m ρ c (Proc.devRef .tc main_arg2) = a2 m c := by
  rw [W2_of_ne m ρ c main_arg2 (by decide)]
  show StableHlo.after hostOps0 (W0 m ρ c) (Proc.devRef .tc main_arg2) = _
  after_results
theorem keep0_arg3 (c : Dev nD) : W2 m ρ c (Proc.devRef .tc main_arg3) = a3 m c := by
  rw [W2_of_ne m ρ c main_arg3 (by decide)]
  show StableHlo.after hostOps0 (W0 m ρ c) (Proc.devRef .tc main_arg3) = _
  after_results
theorem keep0_arg4 (c : Dev nD) : W2 m ρ c (Proc.devRef .tc main_arg4) = a4 m c := by
  rw [W2_of_ne m ρ c main_arg4 (by decide)]
  show StableHlo.after hostOps0 (W0 m ρ c) (Proc.devRef .tc main_arg4) = _
  after_results
theorem keep0_arg5 (c : Dev nD) : W2 m ρ c (Proc.devRef .tc main_arg5) = a5 m c := by
  rw [W2_of_ne m ρ c main_arg5 (by decide)]
  show StableHlo.after hostOps0 (W0 m ρ c) (Proc.devRef .tc main_arg5) = _
  after_results
/-- The reciprocal clamped in-degree, as a column. -/
theorem keep0_deg (c : Dev nD) : W2 m ρ c (Proc.devRef .tc main_v8) = Cert.ReferenceIdeal.Read.val_main_v8 (F := Ideal) (a5 m c) := by
  rw [W2_of_ne m ρ c main_v8 (by decide)]
  show StableHlo.after hostOps0 (W0 m ρ c) (Proc.devRef .tc main_v8) = _
  after_results; rfl
theorem keep0_out (c : Dev nD) : W2 m ρ c (Proc.devRef .tc main_v28) = Cert.ReferenceIdeal.Read.val_main_v33 (F := Ideal) (a0 m c) (a1 m c) (a2 m c) (a3 m c) (a4 m c) (a5 m c) :=
  (W2_arr m ρ c 5).trans (out0 m ρ c)

/-! ## Before layer 1: the second stretch, from the boundary after layer 0's kernel -/

theorem in1_x (c : Dev nD) : V3 m ρ c main_v28 = Cert.ReferenceIdeal.Read.val_main_v33 (F := Ideal) (a0 m c) (a1 m c) (a2 m c) (a3 m c) (a4 m c) (a5 m c) := by
  show StableHlo.after hostOps1 (W2 m ρ c) (Proc.devRef .tc main_v28) = _
  after_results
  exact keep0_out m ρ c
set_option maxHeartbeats 4000000 in
theorem in1_nb (c : Dev nD) : V3 m ρ c main_v40 = Cert.ReferenceIdeal.Read.val_main_v45 (F := Ideal) (a0 m c) (a1 m c) (a2 m c) (a3 m c) (a4 m c) (a5 m c) := by
  show StableHlo.after hostOps1 (W2 m ρ c) (Proc.devRef .tc main_v40) = _
  after_results_simp
  rw [keep0_out, keep0_arg4, keep0_arg5, keep0_deg]
  rfl
theorem in1_ws (c : Dev nD) : V3 m ρ c main_v42 = Cert.ReferenceIdeal.Read.val_main_v47 (F := Ideal) (a1 m c) := by
  show StableHlo.after hostOps1 (W2 m ρ c) (Proc.devRef .tc main_v42) = _
  after_results
  rw [keep0_arg1]
  rfl
theorem in1_wn (c : Dev nD) : V3 m ρ c main_v44 = Cert.ReferenceIdeal.Read.val_main_v50 (F := Ideal) (a2 m c) := by
  show StableHlo.after hostOps1 (W2 m ρ c) (Proc.devRef .tc main_v44) = _
  after_results
  rw [keep0_arg2]
  rfl
theorem in1_b (c : Dev nD) : V3 m ρ c main_v47 = shapeCast S1x128 (Cert.ReferenceIdeal.Read.val_main_v54 (F := Ideal) (a3 m c)) shapeCasts_S128_S1x128 := by
  show StableHlo.after hostOps1 (W2 m ρ c) (Proc.devRef .tc main_v47) = _
  after_results
  rw [keep0_arg3]
  rfl

/-- Layer 1's kernel leaves the reference's layer-1 stage in its result array. -/
theorem out1 (c : Dev nD) : (dat1 (V3 m ρ) c).arrAt 5 cfg1.N = Cert.ReferenceIdeal.Read.val_main_v58 (F := Ideal) (a0 m c) (a1 m c) (a2 m c) (a3 m c) (a4 m c) (a5 m c) := by
  rw [Layer1.final (V3 m ρ) c]
  show layer relu (V3 m ρ c main_v28) (V3 m ρ c main_v40) (V3 m ρ c main_v42) (V3 m ρ c main_v44) (V3 m ρ c main_v47) = _
  rw [in1_x, in1_nb, in1_ws, in1_wn, in1_b]
  exact (Cert.ReferenceIdeal.Layers.layer1_eq _ _ _ _ _ _ _ (fun q => shapeCast_a_1a_apply _ _ (0 : Fin 1) q)).symm

/-! ## What survives to the boundary after layer 1's kernel -/

theorem keep1_arg1 (c : Dev nD) : W4 m ρ c (Proc.devRef .tc main_arg1) = a1 m c := by
  rw [W4_of_ne m ρ c main_arg1 (by decide)]
  show StableHlo.after hostOps1 (W2 m ρ c) (Proc.devRef .tc main_arg1) = _
  after_results
  exact keep0_arg1 m ρ c
theorem keep1_arg2 (c : Dev nD) : W4 m ρ c (Proc.devRef .tc main_arg2) = a2 m c := by
  rw [W4_of_ne m ρ c main_arg2 (by decide)]
  show StableHlo.after hostOps1 (W2 m ρ c) (Proc.devRef .tc main_arg2) = _
  after_results
  exact keep0_arg2 m ρ c
theorem keep1_arg3 (c : Dev nD) : W4 m ρ c (Proc.devRef .tc main_arg3) = a3 m c := by
  rw [W4_of_ne m ρ c main_arg3 (by decide)]
  show StableHlo.after hostOps1 (W2 m ρ c) (Proc.devRef .tc main_arg3) = _
  after_results
  exact keep0_arg3 m ρ c
theorem keep1_arg4 (c : Dev nD) : W4 m ρ c (Proc.devRef .tc main_arg4) = a4 m c := by
  rw [W4_of_ne m ρ c main_arg4 (by decide)]
  show StableHlo.after hostOps1 (W2 m ρ c) (Proc.devRef .tc main_arg4) = _
  after_results
  exact keep0_arg4 m ρ c
theorem keep1_arg5 (c : Dev nD) : W4 m ρ c (Proc.devRef .tc main_arg5) = a5 m c := by
  rw [W4_of_ne m ρ c main_arg5 (by decide)]
  show StableHlo.after hostOps1 (W2 m ρ c) (Proc.devRef .tc main_arg5) = _
  after_results
  exact keep0_arg5 m ρ c
theorem keep1_deg (c : Dev nD) : W4 m ρ c (Proc.devRef .tc main_v8) = Cert.ReferenceIdeal.Read.val_main_v8 (F := Ideal) (a5 m c) := by
  rw [W4_of_ne m ρ c main_v8 (by decide)]
  show StableHlo.after hostOps1 (W2 m ρ c) (Proc.devRef .tc main_v8) = _
  after_results
  exact keep0_deg m ρ c
theorem keep1_out (c : Dev nD) : W4 m ρ c (Proc.devRef .tc main_v48) = Cert.ReferenceIdeal.Read.val_main_v58 (F := Ideal) (a0 m c) (a1 m c) (a2 m c) (a3 m c) (a4 m c) (a5 m c) :=
  (W4_arr m ρ c 5).trans (out1 m ρ c)

/-! ## Before layer 2: the third stretch, from the boundary after layer 1's kernel -/

theorem in2_x (c : Dev nD) : V5 m ρ c main_v48 = Cert.ReferenceIdeal.Read.val_main_v58 (F := Ideal) (a0 m c) (a1 m c) (a2 m c) (a3 m c) (a4 m c) (a5 m c) := by
  show StableHlo.after hostOps2 (W4 m ρ c) (Proc.devRef .tc main_v48) = _
  after_results
  exact keep1_out m ρ c
set_option maxHeartbeats 4000000 in
theorem in2_nb (c : Dev nD) : V5 m ρ c main_v60 = Cert.ReferenceIdeal.Read.val_main_v70 (F := Ideal) (a0 m c) (a1 m c) (a2 m c) (a3 m c) (a4 m c) (a5 m c) := by
  show StableHlo.after hostOps2 (W4 m ρ c) (Proc.devRef .tc main_v60) = _
  after_results_simp
  rw [keep1_out, keep1_arg4, keep1_arg5, keep1_deg]
  rfl
theorem in2_ws (c : Dev nD) : V5 m ρ c main_v62 = Cert.ReferenceIdeal.Read.val_main_v72 (F := Ideal) (a1 m c) := by
  show StableHlo.after hostOps2 (W4 m ρ c) (Proc.devRef .tc main_v62) = _
  after_results
  rw [keep1_arg1]
  rfl
theorem in2_wn (c : Dev nD) : V5 m ρ c main_v64 = Cert.ReferenceIdeal.Read.val_main_v75 (F := Ideal) (a2 m c) := by
  show StableHlo.after hostOps2 (W4 m ρ c) (Proc.devRef .tc main_v64) = _
  after_results
  rw [keep1_arg2]
  rfl
theorem in2_b (c : Dev nD) : V5 m ρ c main_v67 = shapeCast S1x128 (Cert.ReferenceIdeal.Read.val_main_v79 (F := Ideal) (a3 m c)) shapeCasts_S128_S1x128 := by
  show StableHlo.after hostOps2 (W4 m ρ c) (Proc.devRef .tc main_v67) = _
  after_results
  rw [keep1_arg3]
  rfl

/-- Layer 2's kernel leaves the reference's result in its result array. -/
theorem out2 (c : Dev nD) : (dat2 (V5 m ρ) c).arrAt 5 cfg2.N = Cert.ReferenceIdeal.Read.val_main_v82 (F := Ideal) (a0 m c) (a1 m c) (a2 m c) (a3 m c) (a4 m c) (a5 m c) := by
  rw [Layer2.final (V5 m ρ) c]
  show layer id (V5 m ρ c main_v48) (V5 m ρ c main_v60) (V5 m ρ c main_v62) (V5 m ρ c main_v64) (V5 m ρ c main_v67) = _
  rw [in2_x, in2_nb, in2_ws, in2_wn, in2_b]
  exact (Cert.ReferenceIdeal.Layers.layer2_eq _ _ _ _ _ _ _ (fun q => shapeCast_a_1a_apply _ _ (0 : Fin 1) q)).symm

end Cert.KernelIdeal.Boundary

end
-- ==== Proof.lean ====
/-
  Three GraphSAGE layers over 100000 nodes and 1600000 edges: the kernel program against its reference, on the
  extended reals.

  Both programs compute, per layer, `x · W_self + neigh · W_neigh + b` (followed, in the first two layers, by the
  maximum with zero), where `neigh` is the mean over each node's in-neighbours of the previous features: the source
  rows gathered, scatter-added onto the destination rows and scaled by the reciprocal of the in-degree clamped at
  one. The host operations that build `neigh`, the weight slices and the bias are the same in both programs. The
  kernel program differs only in HOW a layer's dense part is computed: a pallas_call over 25 blocks of 4000 rows, each
  block's operands narrowed to bf16 before two matrix products into zero accumulators. On the extended reals the
  narrowing is the identity and a product is the plain sum over the 128 shared coordinates, on both sides; so each
  block the kernel writes is the corresponding block of the reference's layer, the 25 blocks tile the rows, and by
  induction over the three layers the kernel program's result array is the reference's result. No algebraic law
  beyond reading both sides at an entry is needed, and the finiteness precondition is never opened.

  `preserves` is `True`: the idealized kernel program is the kernel program's own text.
-/
import proofs.«182076_j54674933678409_1_alg».proof.Defs
import proofs.«182076_j54674933678409_1_alg».proof.Proof.Gen.Kernel
import proofs.«182076_j54674933678409_1_alg».proof.Proof.Gen.Kernel.Skeleton
import proofs.«182076_j54674933678409_1_alg».proof.Proof.Gen.Kernel.Launch
import proofs.«182076_j54674933678409_1_alg».proof.Proof.Gen.Kernel.Points
import proofs.«182076_j54674933678409_1_alg».proof.Proof.Gen.Kernel.Frame
import proofs.«182076_j54674933678409_1_alg».proof.Proof.Gen.KernelIdeal
import proofs.«182076_j54674933678409_1_alg».proof.Proof.Gen.KernelIdeal.Skeleton
import proofs.«182076_j54674933678409_1_alg».proof.Proof.Gen.KernelIdeal.Launch
import proofs.«182076_j54674933678409_1_alg».proof.Proof.Gen.KernelIdeal.Points
import proofs.«182076_j54674933678409_1_alg».proof.Proof.Gen.KernelIdeal.Frame
import proofs.«182076_j54674933678409_1_alg».proof.Proof.Gen.ReferenceIdeal
import proofs.«182076_j54674933678409_1_alg».proof.Proof.Gen.Pre_finite_inputs
import proofs.«182076_j54674933678409_1_alg».proof.Proof.Gen.ReferenceIdeal.Run
import proofs.«182076_j54674933678409_1_alg».proof.Proof.Gen.ReferenceIdeal.Read
import proofs.«182076_j54674933678409_1_alg».proof.Proof.KernelRun
import proofs.«182076_j54674933678409_1_alg».proof.Proof.Boundary
import Idealize.ShloMosaic.Adequacy
import Idealize.ShloMosaic.Init

noncomputable section

namespace Cert.Proof

open Idealize.ShloMosaic Idealize.ShloMosaic.TcCoe Idealize.SL.Sem

/-- The two idealized programs, run from memories that agree on the six arguments, both end, the arguments
    unchanged, with the same result array: the reference's last stage of the kernel program's arguments. The
    kernel program's run leaves in its result array what layer 2's kernel wrote, which is that stage; the
    reference's run ends at the same stage of its own arguments, which are the kernel program's. -/
theorem algebraic : Cert.algebraic_KernelIdeal_ReferenceIdeal := by
  intro m ρ m' ρ' _ hagree
  refine ⟨fun c => Cert.ReferenceIdeal.Read.val_main_v82 (F := Ideal)
      (Cert.KernelIdeal.Boundary.a0 m c) (Cert.KernelIdeal.Boundary.a1 m c) (Cert.KernelIdeal.Boundary.a2 m c)
      (Cert.KernelIdeal.Boundary.a3 m c) (Cert.KernelIdeal.Boundary.a4 m c) (Cert.KernelIdeal.Boundary.a5 m c), ?_, ?_⟩
  · exact (θ_run Cert.KernelIdeal.defs _ _).mono
      (fun r h c => ⟨(h c).1.trans (Cert.KernelIdeal.Boundary.out2 m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [Cert.ReferenceIdeal.Read.val_main_v82_eq, h0, h1, h2, h3, h4, h5]

/-- The five claims: the two kernel programs' frames are generated; the reference's frame is its generated run
    with the result dropped; nothing was rewritten between the kernel program and its idealization; and the
    value claim above. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
